-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's whole run, read for its RESULT. The program is four kernel regions among stretches of
  host operations; its run is the chain of segments, and the last thread state holds every buffer that is not a
  kernel's private staging at the contents the chain leaves there (`W9`). Here that state is read at the result
  buffer as well as at the six arguments: the result array ends at `W9` of its reference, the arguments as launched.
-/
import proofs.«129329_j69681549410755_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.WholeRun

end
-- ==== Proof.Spec.lean ====
/-
  The mathematics both programs compute, stated once over literal shapes and the extended reals, with no program in
  sight: a rows-by-columns product as a sum over the contracted axis, and "add one bias row to every row"
  (with or without the clamp at zero that follows it in the first layer).
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- Entry (r, q) of the product of an [n, d] array with a [d, e] array: the sum over k of x(r, k) · w(k, q). -/
def matProd {n d e : ℕ} (x : FVec Ideal ⟨2, ![n, d]⟩ .f32) (w : FVec Ideal ⟨2, ![d, e]⟩ .f32) : FVec Ideal ⟨2, ![n, e]⟩ .f32 :=
  fun i => ∑ k : Fin d, x (ix2 (i 0) k) * w (ix2 k (i 1))

/-- A block of rows of the product is the product of that block of rows: if the entries of `x0` on row `j 0` are those
    of `X` on row `i 0`, and the entries of `x1` on column `j 1` are those of `Wt` on column `i 1`, the two products
    agree at `j` and `i`. -/
theorem matProd_block {n d e r : ℕ} (X : FVec Ideal ⟨2, ![n, d]⟩ .f32) (Wt : FVec Ideal ⟨2, ![d, e]⟩ .f32)
    (x0 : FVec Ideal ⟨2, ![r, d]⟩ .f32) (x1 : FVec Ideal ⟨2, ![d, e]⟩ .f32)
    (j : (⟨2, ![r, e]⟩ : Shape).Idx) (i : (⟨2, ![n, e]⟩ : Shape).Idx)
    (h0 : ∀ k : Fin d, x0 (ix2 (j 0) k) = X (ix2 (i 0) k)) (h1 : ∀ k : Fin d, x1 (ix2 k (j 1)) = Wt (ix2 k (i 1))) :
    matProd x0 x1 j = matProd X Wt i :=
  Finset.sum_congr rfl fun k _ => by rw [h0 k, h1 k]

variable {F : FTy → Type} [FloatOps F]

/-- Every row of `a` plus the vector `b`. -/
def addBias {n e : ℕ} (a : FVec F ⟨2, ![n, e]⟩ .f32) (b : FVec F ⟨1, ![e]⟩ .f32) : FVec F ⟨2, ![n, e]⟩ .f32 :=
  fun i => FloatOps.addf (a i) (b (ix1 (i 1)))

/-- Every row of `a` plus the vector `b`, then the larger of that and the float zero. -/
def addBiasClamp {n e : ℕ} (a : FVec F ⟨2, ![n, e]⟩ .f32) (b : FVec F ⟨1, ![e]⟩ .f32) : FVec F ⟨2, ![n, e]⟩ .f32 :=
  fun i => FloatOps.maximumf (FloatOps.addf (a i) (b (ix1 (i 1)))) (Scalar.ofBits .f32 0x00000000#32)

/-- A one-axis contraction's sum, re-indexed by the contracted coordinate: whatever dimension record says
    "contract the left operand's axis 1 with the right operand's axis 0" (the four coordinate facts) sums
    x(r, k) · w(k, q) over k. -/
theorem sum_contr {n d e : ℕ} (D : DotDims ⟨2, ![n, d]⟩ ⟨2, ![d, e]⟩ ⟨2, ![n, e]⟩) (hr : D.contr.rank = 1)
    (hs : D.contr.size ⟨0, by omega⟩ = d)
    (hl0 : ∀ (i : (⟨2, ![n, e]⟩ : Shape).Idx) (q : D.contr.Idx), (D.lhsIdx i q 0).val = (i 0).val)
    (hl1 : ∀ (i : (⟨2, ![n, e]⟩ : Shape).Idx) (q : D.contr.Idx), (D.lhsIdx i q 1).val = (q ⟨0, by omega⟩).val)
    (hr0 : ∀ (i : (⟨2, ![n, e]⟩ : Shape).Idx) (q : D.contr.Idx), (D.rhsIdx i q 0).val = (q ⟨0, by omega⟩).val)
    (hr1 : ∀ (i : (⟨2, ![n, e]⟩ : Shape).Idx) (q : D.contr.Idx), (D.rhsIdx i q 1).val = (i 1).val)
    (x : FVec Ideal ⟨2, ![n, d]⟩ .f32) (w : FVec Ideal ⟨2, ![d, e]⟩ .f32) (i : (⟨2, ![n, e]⟩ : Shape).Idx) :
    ∑ k : D.contr.Idx, x (D.lhsIdx i k) * w (D.rhsIdx i k) = matProd x w i := by
  unfold matProd
  rw [← Equiv.sum_comp (contrEquiv1 D d hr hs).symm]
  refine Finset.sum_congr rfl fun k _ => ?_
  have hk := contrEquiv1_symm_val D d hr hs k
  have el : D.lhsIdx i ((contrEquiv1 D d hr hs).symm k) = ix2 (i 0) k := funext fun a => Fin.ext (by
    match a with
    | ⟨0, _⟩ => exact hl0 _ _
    | ⟨1, _⟩ => exact (hl1 _ _).trans hk)
  have er : D.rhsIdx i ((contrEquiv1 D d hr hs).symm k) = ix2 k (i 1) := funext fun a => Fin.ext (by
    match a with
    | ⟨0, _⟩ => exact (hr0 _ _).trans hk
    | ⟨1, _⟩ => exact hr1 _ _)
  rw [el, er]
  rfl

end Cert.GcnSpec

end
-- ==== Proof.Region0.lean ====
/-
  The first kernel region (the dense transform of layer 1): what its output array holds when the region ends, read
  at the extended reals. Each grid point t reads rows 2000·t … 2000·t + 1999 of the node features and the whole
  weight matrix, multiplies them into a zero accumulator (the change of float format on the way in is the identity
  at the extended reals), and writes the block back to the same rows; the 25 blocks tile the 50000 rows, so the
  array ends at the product of the two arrays: entry (r, q) is the sum over k of x(r, k) · w(k, q).
-/
import proofs.«129329_j69681549410755_1_alg».proof.Proof.Gen.KernelIdeal.Frame
import proofs.«129329_j69681549410755_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.GcnSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-! The block product's dimension record contracts the left operand's axis 1 with the right operand's axis 0. -/

theorem dot0_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot0_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dot0_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot0_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's arithmetic: the block of rows times the weight matrix. -/
theorem pay0_eq (x0 : Vec Ideal S2000x128 .f32) (x1 : Vec Ideal S128x128 .f32) :
    k0_pay1 x0 x1 = matProd x0 x1 := by
  funext j
  unfold k0_pay1
  refine (Ideal.matmul_constant_zero_apply dot_S2000x128_S128x128_S2000x128_1_0_0_1_n_n none
    (truncf .bf16 x0 bitsLt_bf16_f32) (truncf .bf16 x1 bitsLt_bf16_f32) j).trans ?_
  exact sum_contr dot_S2000x128_S128x128_S2000x128_1_0_0_1_n_n rfl rfl dot0_l0 dot0_l1 dot0_r0 dot0_r1 x0 x1 j

/-- The block index maps over the grid: the feature window moves down the rows with the output window, the weight
    window stays at the whole matrix. -/
theorem idx_facts0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 24 ∧ win0_2.index t (1 : Fin 2) = 0 :=
  (by decide +kernel : ∀ t : Fin grid0.N, _)

theorem idx_onto0 : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the product of the arrays as the region finds them. -/
theorem flushed0_eq (c : Dev nD) (t : Fin cfg0.N) :
    (dat0 V c).flushed 2 t = ((cfg0.win 2).blk t).view.read (Elt Ideal) (matProd (n := 50000) (d := 128) (e := 128) (V c main_arg0) (V c main_arg2)) := by
  show (cfg0.win 2).cut (grid0.coords t) ((dat0 V c).after 2 t) = _
  rw [after0_2]
  unfold out0_2
  rw [View.canon_unit_zero zero_offsets0]
  simp only [View.ld_unit_zero (S := S2000x128) zero_offsets0, View.ld_unit_zero (S := S128x128) zero_offsets0]
  obtain ⟨e0, e1, e2, e3, e4, e5⟩ := idx_facts0 t
  refine (pay0_eq (iblk0 V c 0 t) (iblk0 V c 1 t)).trans ?_
  funext j
  have hj0 : (j 0).val < 2000 := (j 0).isLt
  have hj1 : (j 1).val < 128 := (j 1).isLt
  refine matProd_block (n := 50000) (V c main_arg0) (V c main_arg2) (iblk0 V c 0 t) (iblk0 V c 1 t) j (((cfg0.win 2).blk t).view.emb j) (fun k => ?_) (fun k => ?_)
  · have hk : k.val < 128 := k.isLt
    show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · have hk : k.val < 128 := k.isLt
    show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The 25 row blocks cover the array. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array when the region ends: the product of the arrays as the region finds them. -/
theorem final0 (c : Dev nD) : (dat0 V c).arrAt 2 cfg0.N = matProd (n := 50000) (d := 128) (e := 128) (V c main_arg0) (V c main_arg2) :=
  (dat0 V c).arrAt_eq_of_cover 2 (matProd (n := 50000) (d := 128) (e := 128) (V c main_arg0) (V c main_arg2)) (fun t _ => flushed0_eq V c t) (cover0)

end Cert.KernelIdeal.RegionValue

end
-- ==== Proof.Region1.lean ====
/-
  The second kernel region (bias add, then the clamp at zero): what its output array holds when the region ends, as
  one function of the two arrays it reads. Each grid point t reads rows 2000·t … 2000·t + 1999 of the aggregated
  features and the one bias row, adds the bias to every row, takes the larger of each entry and the float zero, and
  writes the block back to the same rows; the 25 blocks tile the 50000 rows.
-/
import proofs.«129329_j69681549410755_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem zero_offsets' : (![0, 0] : Fin 2 → Nat) = fun _ => 0 := funext fun a => by fin_cases a <;> rfl

/-- Every row of `a` plus the one row of `b`, then the larger of that and the float zero. -/
def addBiasRowClamp128 (a : S50000x128.Idx → Elt F .f32) (b : S1x128.Idx → Elt F .f32) : S50000x128.Idx → Elt F .f32 :=
  fun i => FloatOps.maximumf (FloatOps.addf (a i) (b (ix2 (0 : Fin 1) (i 1)))) (Scalar.ofBits .f32 0x00000000#32)

/-- The body's arithmetic at one entry of the block: the feature entry plus the bias entry of its column, clamped at zero. -/
theorem pay1_at (x0 : Vec F S2000x128 .f32) (x1 : Vec F S1x128 .f32) (p : Fin 2000) (q : Fin 128) :
    k1_pay1 x0 x1 (ix2 p q) = FloatOps.maximumf (FloatOps.addf (x0 (ix2 p q)) (x1 (ix2 (0 : Fin 1) q))) (Scalar.ofBits .f32 0x00000000#32) := by
  unfold k1_pay1
  simp only [shapeCast_self]
  show FloatOps.maximumf (FloatOps.addf (x0 (ix2 p q)) (broadcastTo S2000x128 x1 broadcasts_S1x128_S2000x128 (ix2 p q))) (Scalar.ofBits .f32 0x00000000#32) = _
  rw [broadcastTo_1b_ab_apply]

/-- The block index maps over the grid: the feature window moves with the output window, the bias window stays,
    and the output's block (t, 0) is the t-th block of rows. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) ≤ 24 ∧ win1_2.index t (1 : Fin 2) = 0 :=
  (by decide +kernel : ∀ t : Fin grid1.N, _)

theorem idx_onto1 : ∀ q0 : Fin 25, ∃ t : Fin cfg1.N, win1_2.index t = ![q0.val, 0] :=
  (by decide +kernel : ∀ q0 : Fin 25, ∃ t : Fin grid1.N, win1_2.index t = ![q0.val, 0])

/-- What point `t` writes back is block `t` of "features plus bias row, clamped at zero" of the arrays as the region finds them. -/
theorem flushed1_eq (c : Dev nD) (t : Fin cfg1.N) :
    (dat1 V c).flushed 2 t = ((cfg1.win 2).blk t).view.read (Elt F) (addBiasRowClamp128 (V c main_v43) (V c main_v44)) := by
  show (cfg1.win 2).cut (grid1.coords t) ((dat1 V c).after 2 t) = _
  rw [after1_2]
  unfold out1_2
  rw [View.canon_unit_zero zero_offsets']
  simp only [View.ld_unit_zero (S := S2000x128) zero_offsets', View.ld_unit_zero (S := S1x128) zero_offsets']
  obtain ⟨e0, e1, e2, e3, e4, e5⟩ := idx_facts1 t
  funext j
  have hj0 : (j 0).val < 2000 := (j 0).isLt
  have hj1 : (j 1).val < 128 := (j 1).isLt
  refine (congrArg (k1_pay1 (iblk1 V c 0 t) (iblk1 V c 1 t)) (eq_ix2 j)).trans ?_
  refine (pay1_at (iblk1 V c 0 t) (iblk1 V c 1 t) (j 0) (j 1)).trans ?_
  show FloatOps.maximumf (FloatOps.addf (V c main_v43 (((cfg1.win 0).blk t).view.emb (ix2 (j 0) (j 1)))) (V c main_v44 (((cfg1.win 1).blk t).view.emb (ix2 (0 : Fin 1) (j 1))))) (Scalar.ofBits .f32 0x00000000#32)
    = FloatOps.maximumf (FloatOps.addf (V c main_v43 (((cfg1.win 2).blk t).view.emb j)) (V c main_v44 (ix2 (0 : Fin 1) ((((cfg1.win 2).blk t).view.emb j) 1)))) (Scalar.ofBits .f32 0x00000000#32)
  have h0 : ((cfg1.win 0).blk t).view.emb (ix2 (j 0) (j 1)) = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]
  rfl

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- The 25 row blocks cover the array. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array when the region ends: features plus bias row, clamped at zero, of the arrays as the region finds them. -/
theorem final1 (c : Dev nD) : (dat1 V c).arrAt 2 cfg1.N = addBiasRowClamp128 (V c main_v43) (V c main_v44) :=
  (dat1 V c).arrAt_eq_of_cover 2 (addBiasRowClamp128 (V c main_v43) (V c main_v44)) (fun t _ => flushed1_eq V c t) (cover1)

end Cert.KernelIdeal.RegionValue

end
-- ==== Proof.Region2.lean ====
/-
  The third kernel region (the dense transform of layer 2): what its output array holds when the region ends, read
  at the extended reals. Each grid point t reads rows 2000·t … 2000·t + 1999 of layer 1's output and the whole
  [128, 64] weight matrix, multiplies them into a zero accumulator (the change of float format on the way in is the
  identity at the extended reals), and writes the [2000, 64] block back to the same rows; the 25 blocks tile the
  50000 rows, so the array ends at the product of the two arrays.
-/
import proofs.«129329_j69681549410755_1_alg».proof.Proof.Gen.KernelIdeal.Frame
import proofs.«129329_j69681549410755_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.GcnSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-! The block product's dimension record contracts the left operand's axis 1 with the right operand's axis 0. -/

theorem dot2_l0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dot2_l1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem dot2_r0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem dot2_r1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's arithmetic: the block of rows times the weight matrix. -/
theorem pay2_eq (x0 : Vec Ideal S2000x128 .f32) (x1 : Vec Ideal S128x64 .f32) :
    k2_pay1 x0 x1 = matProd x0 x1 := by
  funext j
  unfold k2_pay1
  simp only [shapeCast_self]
  refine (Ideal.matmul_constant_zero_apply dot_S2000x128_S128x64_S2000x64_1_0_0_1_n_n none
    (truncf .bf16 x0 bitsLt_bf16_f32) (truncf .bf16 x1 bitsLt_bf16_f32) j).trans ?_
  exact sum_contr dot_S2000x128_S128x64_S2000x64_1_0_0_1_n_n rfl rfl dot2_l0 dot2_l1 dot2_r0 dot2_r1 x0 x1 j

/-- The block index maps over the grid: the feature window moves down the rows with the output window, the weight
    window stays at the whole matrix. -/
theorem idx_facts2 : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (0 : Fin 2) ≤ 24 ∧ win2_2.index t (1 : Fin 2) = 0 :=
  (by decide +kernel : ∀ t : Fin grid2.N, _)

theorem idx_onto2 : ∀ q0 : Fin 25, ∃ t : Fin cfg2.N, win2_2.index t = ![q0.val, 0] :=
  (by decide +kernel : ∀ q0 : Fin 25, ∃ t : Fin grid2.N, win2_2.index t = ![q0.val, 0])

/-- What point `t` writes back is block `t` of the product of the arrays as the region finds them. -/
theorem flushed2_eq (c : Dev nD) (t : Fin cfg2.N) :
    (dat2 V c).flushed 2 t = ((cfg2.win 2).blk t).view.read (Elt Ideal) (matProd (n := 50000) (d := 128) (e := 64) (V c main_v45) (V c main_arg4)) := by
  show (cfg2.win 2).cut (grid2.coords t) ((dat2 V c).after 2 t) = _
  rw [after2_2]
  unfold out2_2
  rw [View.canon_unit_zero zero_offsets2]
  simp only [View.ld_unit_zero (S := S2000x128) zero_offsets2, View.ld_unit_zero (S := S128x64) zero_offsets2]
  obtain ⟨e0, e1, e2, e3, e4, e5⟩ := idx_facts2 t
  refine (pay2_eq (iblk2 V c 0 t) (iblk2 V c 1 t)).trans ?_
  funext j
  have hj0 : (j 0).val < 2000 := (j 0).isLt
  have hj1 : (j 1).val < 64 := (j 1).isLt
  refine matProd_block (n := 50000) (V c main_v45) (V c main_arg4) (iblk2 V c 0 t) (iblk2 V c 1 t) j (((cfg2.win 2).blk t).view.emb j) (fun k => ?_) (fun k => ?_)
  · have hk : k.val < 128 := k.isLt
    show V c main_v45 (((cfg2.win 0).blk t).view.emb (ix2 (j 0) k)) = V c main_v45 (ix2 ((((cfg2.win 2).blk t).view.emb j) 0) k)
    refine congrArg (V c main_v45) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · have hk : k.val < 128 := k.isLt
    show V c main_arg4 (((cfg2.win 1).blk t).view.emb (ix2 k (j 1))) = V c main_arg4 (ix2 k ((((cfg2.win 2).blk t).view.emb j) 1))
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the array is in point `t`'s block iff each coordinate is in the block's range on its axis. -/
theorem mem_blk2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v46).slice (win2_2.rect t)).set ↔ _
  rw [View.set_slice_whole, Rect.mem_set_unit]
  exact Iff.rfl

/-- The 25 row blocks cover the array. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The output array when the region ends: the product of the arrays as the region finds them. -/
theorem final2 (c : Dev nD) : (dat2 V c).arrAt 2 cfg2.N = matProd (n := 50000) (d := 128) (e := 64) (V c main_v45) (V c main_arg4) :=
  (dat2 V c).arrAt_eq_of_cover 2 (matProd (n := 50000) (d := 128) (e := 64) (V c main_v45) (V c main_arg4)) (fun t _ => flushed2_eq V c t) (cover2)

end Cert.KernelIdeal.RegionValue

end
-- ==== Proof.Region3.lean ====
/-
  The last kernel region (bias add, no activation): what its output array holds when the region ends, as one
  function of the two arrays it reads. Each grid point t reads rows 2000·t … 2000·t + 1999 of the aggregated
  features and the one bias row, adds the bias to every row, and writes the block back to the same rows; the 25
  blocks tile the 50000 rows, so the array ends at "features plus bias row", whatever the region found there.
-/
import proofs.«129329_j69681549410755_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- Every row of `a` plus the one row of `b`. -/
def addBiasRow64 (a : S50000x64.Idx → Elt F .f32) (b : S1x64.Idx → Elt F .f32) : S50000x64.Idx → Elt F .f32 :=
  fun i => FloatOps.addf (a i) (b (ix2 (0 : Fin 1) (i 1)))

/-- The body's arithmetic at one entry of the block: the feature entry plus the bias entry of its column. -/
theorem pay3_at (x0 : Vec F S2000x64 .f32) (x1 : Vec F S1x64 .f32) (p : Fin 2000) (q : Fin 64) :
    k3_pay1 x0 x1 (ix2 p q) = FloatOps.addf (x0 (ix2 p q)) (x1 (ix2 (0 : Fin 1) q)) := by
  unfold k3_pay1
  simp only [shapeCast_self]
  show FloatOps.addf (x0 (ix2 p q)) (broadcastTo S2000x64 x1 broadcasts_S1x64_S2000x64 (ix2 p q)) = _
  rw [broadcastTo_1b_ab_apply]

/-- The block index maps over the grid: the feature window moves with the output window, the bias window stays,
    and the output's block (t, 0) is the t-th block of rows. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) ≤ 24 ∧ win3_2.index t (1 : Fin 2) = 0 :=
  (by decide +kernel : ∀ t : Fin grid3.N, _)

theorem idx_onto3 : ∀ q0 : Fin 25, ∃ t : Fin cfg3.N, win3_2.index t = ![q0.val, 0] :=
  (by decide +kernel : ∀ q0 : Fin 25, ∃ t : Fin grid3.N, win3_2.index t = ![q0.val, 0])

/-- What point `t` writes back is block `t` of "features plus bias row" of the arrays as the region finds them. -/
theorem flushed3_eq (c : Dev nD) (t : Fin cfg3.N) :
    (dat3 V c).flushed 2 t = ((cfg3.win 2).blk t).view.read (Elt F) (addBiasRow64 (V c main_v59) (V c main_v60)) := by
  show (cfg3.win 2).cut (grid3.coords t) ((dat3 V c).after 2 t) = _
  rw [after3_2]
  unfold out3_2
  rw [View.canon_unit_zero zero_offsets]
  simp only [View.ld_unit_zero (S := S2000x64) zero_offsets, View.ld_unit_zero (S := S1x64) zero_offsets]
  obtain ⟨e0, e1, e2, e3, e4, e5⟩ := idx_facts3 t
  funext j
  have hj0 : (j 0).val < 2000 := (j 0).isLt
  have hj1 : (j 1).val < 64 := (j 1).isLt
  refine (congrArg (k3_pay1 (iblk3 V c 0 t) (iblk3 V c 1 t)) (eq_ix2 j)).trans ?_
  refine (pay3_at (iblk3 V c 0 t) (iblk3 V c 1 t) (j 0) (j 1)).trans ?_
  show FloatOps.addf (V c main_v59 (((cfg3.win 0).blk t).view.emb (ix2 (j 0) (j 1)))) (V c main_v60 (((cfg3.win 1).blk t).view.emb (ix2 (0 : Fin 1) (j 1))))
    = FloatOps.addf (V c main_v59 (((cfg3.win 2).blk t).view.emb j)) (V c main_v60 (ix2 (0 : Fin 1) ((((cfg3.win 2).blk t).view.emb j) 1)))
  have h0 : ((cfg3.win 0).blk t).view.emb (ix2 (j 0) (j 1)) = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]
  rfl

/-- An index of the array is in point `t`'s block iff each coordinate is in the block's range on its axis. -/
theorem mem_blk3 (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v61).slice (win3_2.rect t)).set ↔ _
  rw [View.set_slice_whole, Rect.mem_set_unit]
  exact Iff.rfl

/-- The 25 row blocks cover the array. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- The output array when the region ends: features plus bias row, of the arrays as the region finds them. -/
theorem final3 (c : Dev nD) : (dat3 V c).arrAt 2 cfg3.N = addBiasRow64 (V c main_v59) (V c main_v60) :=
  (dat3 V c).arrAt_eq_of_cover 2 (addBiasRow64 (V c main_v59) (V c main_v60)) (fun t _ => flushed3_eq V c t) (cover3)

end Cert.KernelIdeal.RegionValue

end
-- ==== Proof.HostFnK.lean ====
/-
  The graph side of one convolution layer, as the host operations spell it in this program, named piece by piece:
  the edge list with the self loops appended, the wrap of a negative node number, the inverse square root of each
  node's in-degree (zero where the degree is not positive), the weight of every edge, and the aggregation — gather
  each edge's source row, scale it by the edge's weight, add it into the edge's destination row. Every piece is a
  composition of the program's own operations; none is opened anywhere.
-/
import proofs.«129329_j69681549410755_1_alg».proof.Proof.Gen.KernelIdeal

noncomputable section

namespace Cert.KernelIdeal.HostFn

open Cert.KernelIdeal Cert.KernelIdeal.Gen Idealize.ShloMosaic

variable {F : FTy → Type} [FloatOps F]

/-- The source node of every edge: row 0 of the edge list, then the self loops 0 … 49999. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destination node of every edge: row 1 of the edge list, then the self loops 0 … 49999. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counted from the end: v + 50000 where v < 0, else v. -/
def wrapNode (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- Each node's in-degree (self loop included): ones scattered and added by destination. -/
def degOf (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- deg^(-1/2) where deg > 0, else 0. -/
def invSqrtDeg (d : (⟨S850000, .i32⟩ : BufTy).Contents (Elt F)) : (⟨S50000, .f32⟩ : BufTy).Contents (Elt F) :=
  select (cmpf .ogt (degOf d) (broadcastInDim S50000 ![] bcast_S_S50000 (constant S_ .f32 0x00000000#32))) (Host.rsqrt (degOf d)) (broadcastInDim S50000 ![] bcast_S_S50000 (id (constant (F := F) S_ .f32 0x00000000#32)))

/-- The weight of every edge: deg^(-1/2) at its source times deg^(-1/2) at its destination. -/
def edgeWeight (s d : (⟨S850000, .i32⟩ : BufTy).Contents (Elt F)) : (⟨S850000, .f32⟩ : BufTy).Contents (Elt F) :=
  mulf (Host.gather gather_S50000_S850000x1_S850000_n_0_n_n_0_1_1 (invSqrtDeg d) (broadcastInDim S850000x1 ![0] bcast_S850000_S850000x1_0 (wrapNode s)))
    (Host.gather gather_S50000_S850000x1_S850000_n_0_n_n_0_1_1 (invSqrtDeg d) (broadcastInDim S850000x1 ![0] bcast_S850000_S850000x1_0 (wrapNode d)))

/-- Layer 1's aggregation of 128-wide rows: each edge's source row times the edge's weight, added into its destination row. -/
def aggregate128 (s d : (⟨S850000, .i32⟩ : BufTy).Contents (Elt F)) (nrm : (⟨S850000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d)
    (mulf (Host.gather gather_S50000x128_S850000x1_S850000x128_1_0_n_n_0_1_1128 h (broadcastInDim S850000x1 ![0] bcast_S850000_S850000x1_0 (wrapNode s)))
      (broadcastInDim S850000x128 ![0, 1] bcast_S850000x1_S850000x128_0_1 (broadcastInDim S850000x1 ![0] bcast_S850000_S850000x1_0 nrm)))

/-- Layer 2's aggregation of 64-wide rows. -/
def aggregate64 (s d : (⟨S850000, .i32⟩ : BufTy).Contents (Elt F)) (nrm : (⟨S850000, .f32⟩ : BufTy).Contents (Elt F))
    (h : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 d)
    (mulf (Host.gather gather_S50000x64_S850000x1_S850000x64_1_0_n_n_0_1_164 h (broadcastInDim S850000x1 ![0] bcast_S850000_S850000x1_0 (wrapNode s)))
      (broadcastInDim S850000x64 ![0, 1] bcast_S850000x1_S850000x64_0_1 (broadcastInDim S850000x1 ![0] bcast_S850000_S850000x1_0 nrm)))

end Cert.KernelIdeal.HostFn

end
-- ==== Proof.KernelValue.lean ====
/-
  The idealized kernel's result array, followed through the program: the contents of the buffers at each boundary
  between a stretch of host operations and a kernel region, from the launch to the return. The edge list's
  pieces (sources, destinations, edge weights) are computed once before the first region and are never written
  again; each region's output is what its module says (a dense product, or a bias added to every row); each later
  stretch of host operations aggregates the region's output over the edges. At the return the result array holds
  layer 2's aggregation plus its bias row, over layer 1's clamped output.
-/
import proofs.«129329_j69681549410755_1_alg».proof.Proof.Gen.KernelIdeal.Frame
import proofs.«129329_j69681549410755_1_alg».proof.Proof.Region0
import proofs.«129329_j69681549410755_1_alg».proof.Proof.Region1
import proofs.«129329_j69681549410755_1_alg».proof.Proof.Region2
import proofs.«129329_j69681549410755_1_alg».proof.Proof.Region3
import proofs.«129329_j69681549410755_1_alg».proof.Proof.HostFnK
import Idealize.ShloMosaic.Lib.StableHlo.Run

set_option maxRecDepth 16384

noncomputable section

namespace Cert.KernelIdeal.KernelValue

open Cert.KernelIdeal Cert.KernelIdeal.Gen Cert.KernelIdeal.HostFn Cert.KernelIdeal.RegionValue Cert.GcnSpec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region: the edge list's pieces, and the arguments untouched -/

theorem src_at3 : W3 m ρ c (Proc.devRef .tc main_v3) = srcOf (m ((c.tc : Thread nD τ).loc main_arg1)) := by
  unfold srcOf
  after_results_simp <;> rfl

theorem dst_at3 : W3 m ρ c (Proc.devRef .tc main_v6) = dstOf (m ((c.tc : Thread nD τ).loc main_arg1)) := by
  unfold dstOf
  after_results_simp <;> rfl

/-- Where the degree is positive. -/
theorem pos_at1 : W1 m ρ c (Proc.devRef .tc main_v12) = cmpf .ogt (degOf (dstOf (m ((c.tc : Thread nD τ).loc main_arg1)))) (broadcastInDim S50000 ![] bcast_S_S50000 (constant S_ .f32 0x00000000#32)) := by
  unfold degOf dstOf
  after_results_simp <;> rfl

/-- The degree's inverse square root, before the guard. -/
theorem rsqrt_at1 : W1 m ρ c (Proc.devRef .tc main_v13) = Host.rsqrt (degOf (dstOf (m ((c.tc : Thread nD τ).loc main_arg1)))) := by
  unfold degOf dstOf
  after_results_simp <;> rfl

theorem zero_at1 : W1 m ρ c (Proc.devRef .tc main_cst_2) = constant (F := Ideal) S_ .f32 0x00000000#32 := by
  after_results_simp <;> rfl

/-- The outlined select over any buffer contents: where the flag is set the second operand, else the float zero. -/
theorem select_step (Wv : Valuation τ sig (Elt Ideal)) (flag : (⟨S50000, .i1⟩ : BufTy).Contents (Elt Ideal)) (val : (⟨S50000, .f32⟩ : BufTy).Contents (Elt Ideal))
    (h12 : Wv (Proc.devRef .tc main_v12) = flag) (h13 : Wv (Proc.devRef .tc main_v13) = val)
    (hc : Wv (Proc.devRef .tc main_cst_2) = constant (F := Ideal) S_ .f32 0x00000000#32) :
    StableHlo.after hostOps0_1 Wv (Proc.devRef .tc main_v14)
      = select flag val (broadcastInDim S50000 ![] bcast_S_S50000 (id (constant (F := Ideal) S_ .f32 0x00000000#32))) := by
  after_results_simp
  rw [h12, h13, hc]
  rfl

/-- The guarded inverse square root of the degree: the outlined select, over what the first stretch left. -/
theorem inv_at2 : W2 m ρ c (Proc.devRef .tc main_v14) = invSqrtDeg (dstOf (m ((c.tc : Thread nD τ).loc main_arg1))) := by
  unfold invSqrtDeg
  exact select_step (W1 m ρ c) _ _ (pos_at1 m ρ c) (rsqrt_at1 m ρ c) (zero_at1 m ρ c)

theorem src_at2 : W2 m ρ c (Proc.devRef .tc main_v3) = srcOf (m ((c.tc : Thread nD τ).loc main_arg1)) := by
  unfold srcOf
  after_results_simp <;> rfl

theorem dst_at2 : W2 m ρ c (Proc.devRef .tc main_v6) = dstOf (m ((c.tc : Thread nD τ).loc main_arg1)) := by
  unfold dstOf
  after_results_simp <;> rfl

set_option maxHeartbeats 1600000 in
/-- The edge weights: the third stretch's two gathers and their product, over what the second stretch left. -/
theorem weight_at3 : W3 m ρ c (Proc.devRef .tc main_v29) = edgeWeight (srcOf (m ((c.tc : Thread nD τ).loc main_arg1))) (dstOf (m ((c.tc : Thread nD τ).loc main_arg1))) := by
  have h14 := inv_at2 m ρ c
  have h3 := src_at2 m ρ c
  have h6 := dst_at2 m ρ c
  show StableHlo.after hostOps0_2 (W2 m ρ c) (Proc.devRef .tc main_v29) = _
  generalize W2 m ρ c = Wv at h14 h3 h6 ⊢
  unfold edgeWeight wrapNode
  after_results_simp
  rw [h14, h3, h6]

theorem arg0_at3 : W3 m ρ c (Proc.devRef .tc main_arg0) = (m ((c.tc : Thread nD τ).loc main_arg0)) := by
  after_results_simp <;> rfl

theorem arg2_at3 : W3 m ρ c (Proc.devRef .tc main_arg2) = (m ((c.tc : Thread nD τ).loc main_arg2)) := by
  after_results_simp <;> rfl

theorem arg3_at3 : W3 m ρ c (Proc.devRef .tc main_arg3) = (m ((c.tc : Thread nD τ).loc main_arg3)) := by
  after_results_simp <;> rfl

theorem arg4_at3 : W3 m ρ c (Proc.devRef .tc main_arg4) = (m ((c.tc : Thread nD τ).loc main_arg4)) := by
  after_results_simp <;> rfl

theorem arg5_at3 : W3 m ρ c (Proc.devRef .tc main_arg5) = (m ((c.tc : Thread nD τ).loc main_arg5)) := by
  after_results_simp <;> rfl

/-! ## Region 0: the dense product of layer 1 -/

theorem dense1_at4 : W4 m ρ c (Proc.devRef .tc main_v30) = (matProd (n := 50000) (d := 128) (e := 128) (m ((c.tc : Thread nD τ).loc main_arg0)) (m ((c.tc : Thread nD τ).loc main_arg2))) := by
  refine (W4_arr m ρ c 2).trans ((final0 (V3 m ρ) c).trans ?_)
  rw [show V3 m ρ c main_arg0 = (m ((c.tc : Thread nD τ).loc main_arg0)) from arg0_at3 m ρ c, show V3 m ρ c main_arg2 = (m ((c.tc : Thread nD τ).loc main_arg2)) from arg2_at3 m ρ c]

/-! ## The host operations between regions 0 and 1 write none of the carried buffers -/

theorem skip1_main_v3 : StableHlo.after hostOps1 (W4 m ρ c) (Proc.devRef .tc main_v3) = W4 m ρ c (Proc.devRef .tc main_v3) := by
  generalize W4 m ρ c = Wv
  after_results_simp

theorem skip1_main_v6 : StableHlo.after hostOps1 (W4 m ρ c) (Proc.devRef .tc main_v6) = W4 m ρ c (Proc.devRef .tc main_v6) := by
  generalize W4 m ρ c = Wv
  after_results_simp

theorem skip1_main_v29 : StableHlo.after hostOps1 (W4 m ρ c) (Proc.devRef .tc main_v29) = W4 m ρ c (Proc.devRef .tc main_v29) := by
  generalize W4 m ρ c = Wv
  after_results_simp

theorem skip1_main_arg4 : StableHlo.after hostOps1 (W4 m ρ c) (Proc.devRef .tc main_arg4) = W4 m ρ c (Proc.devRef .tc main_arg4) := by
  generalize W4 m ρ c = Wv
  after_results_simp

theorem skip1_main_arg5 : StableHlo.after hostOps1 (W4 m ρ c) (Proc.devRef .tc main_arg5) = W4 m ρ c (Proc.devRef .tc main_arg5) := by
  generalize W4 m ρ c = Wv
  after_results_simp

/-- A buffer no region up to the third writes and the middle stretch of host operations skips keeps, at the
    third region's exit, what it held at the first region's entry. -/
theorem carry (b : Ref sig .tc) (h0 : ∀ w, Pipeline.arrRef spec0 w ≠ b) (h1 : ∀ w, Pipeline.arrRef spec1 w ≠ b)
    (h2 : ∀ w, Pipeline.arrRef spec2 w ≠ b)
    (hk : StableHlo.after hostOps1 (W4 m ρ c) (Proc.devRef .tc b) = W4 m ρ c (Proc.devRef .tc b)) :
    W7 m ρ c (Proc.devRef .tc b) = W3 m ρ c (Proc.devRef .tc b) :=
  (W7_of_ne m ρ c b h2).trans ((W6_of_ne m ρ c b h1).trans (hk.trans (W4_of_ne m ρ c b h0)))

/-! ## The aggregation of layer 1, and its bias as a row -/

set_option maxHeartbeats 1600000 in
theorem agg1_at5 : W5 m ρ c (Proc.devRef .tc main_v43) = (aggregate128 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 128) (m ((c.tc : Thread nD τ).loc main_arg0)) (m ((c.tc : Thread nD τ).loc main_arg2)))) := by
  have h3 : W4 m ρ c (Proc.devRef .tc main_v3) = (srcOf (m ((c.tc : Thread nD τ).loc main_arg1))) := (W4_of_ne m ρ c main_v3 (by decide)).trans (src_at3 m ρ c)
  have h6 : W4 m ρ c (Proc.devRef .tc main_v6) = (dstOf (m ((c.tc : Thread nD τ).loc main_arg1))) := (W4_of_ne m ρ c main_v6 (by decide)).trans (dst_at3 m ρ c)
  have h29 : W4 m ρ c (Proc.devRef .tc main_v29) = (edgeWeight (srcOf (m ((c.tc : Thread nD τ).loc main_arg1))) (dstOf (m ((c.tc : Thread nD τ).loc main_arg1)))) := (W4_of_ne m ρ c main_v29 (by decide)).trans (weight_at3 m ρ c)
  have h30 := dense1_at4 m ρ c
  show StableHlo.after hostOps1 (W4 m ρ c) (Proc.devRef .tc main_v43) = _
  generalize W4 m ρ c = Wv at h3 h6 h29 h30 ⊢
  unfold aggregate128 wrapNode
  after_results_simp
  rw [h3, h6, h29, h30]

theorem bias1_at5 : W5 m ρ c (Proc.devRef .tc main_v44) = (shapeCast S1x128 (m ((c.tc : Thread nD τ).loc main_arg3)) shapeCasts_S128_S1x128) := by
  have h : W4 m ρ c (Proc.devRef .tc main_arg3) = (m ((c.tc : Thread nD τ).loc main_arg3)) := (W4_of_ne m ρ c main_arg3 (by decide)).trans (arg3_at3 m ρ c)
  show StableHlo.after hostOps1 (W4 m ρ c) (Proc.devRef .tc main_v44) = _
  generalize W4 m ρ c = Wv at h ⊢
  after_results_simp
  rw [h]
  rfl

/-! ## Region 1: bias and clamp -/

theorem layer1_at6 : W6 m ρ c (Proc.devRef .tc main_v45) = (addBiasRowClamp128 (aggregate128 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 128) (m ((c.tc : Thread nD τ).loc main_arg0)) (m ((c.tc : Thread nD τ).loc main_arg2)))) (shapeCast S1x128 (m ((c.tc : Thread nD τ).loc main_arg3)) shapeCasts_S128_S1x128)) := by
  refine (W6_arr m ρ c 2).trans ((final1 (V5 m ρ) c).trans ?_)
  rw [show V5 m ρ c main_v43 = (aggregate128 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 128) (m ((c.tc : Thread nD τ).loc main_arg0)) (m ((c.tc : Thread nD τ).loc main_arg2)))) from agg1_at5 m ρ c, show V5 m ρ c main_v44 = (shapeCast S1x128 (m ((c.tc : Thread nD τ).loc main_arg3)) shapeCasts_S128_S1x128) from bias1_at5 m ρ c]

/-! ## Region 2: the dense product of layer 2 -/

theorem dense2_at7 : W7 m ρ c (Proc.devRef .tc main_v46) = (matProd (n := 50000) (d := 128) (e := 64) (addBiasRowClamp128 (aggregate128 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 128) (m ((c.tc : Thread nD τ).loc main_arg0)) (m ((c.tc : Thread nD τ).loc main_arg2)))) (shapeCast S1x128 (m ((c.tc : Thread nD τ).loc main_arg3)) shapeCasts_S128_S1x128)) (m ((c.tc : Thread nD τ).loc main_arg4))) := by
  have hw : W6 m ρ c (Proc.devRef .tc main_arg4) = (m ((c.tc : Thread nD τ).loc main_arg4)) :=
    (W6_of_ne m ρ c main_arg4 (by decide)).trans ((skip1_main_arg4 m ρ c).trans ((W4_of_ne m ρ c main_arg4 (by decide)).trans (arg4_at3 m ρ c)))
  refine (W7_arr m ρ c 2).trans ((final2 (V6 m ρ) c).trans ?_)
  rw [show V6 m ρ c main_v45 = (addBiasRowClamp128 (aggregate128 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 128) (m ((c.tc : Thread nD τ).loc main_arg0)) (m ((c.tc : Thread nD τ).loc main_arg2)))) (shapeCast S1x128 (m ((c.tc : Thread nD τ).loc main_arg3)) shapeCasts_S128_S1x128)) from layer1_at6 m ρ c, show V6 m ρ c main_arg4 = (m ((c.tc : Thread nD τ).loc main_arg4)) from hw]

/-! ## The aggregation of layer 2, and its bias as a row -/

set_option maxHeartbeats 1600000 in
theorem agg2_at8 : W8 m ρ c (Proc.devRef .tc main_v59) = (aggregate64 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 64) (addBiasRowClamp128 (aggregate128 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 128) (m ((c.tc : Thread nD τ).loc main_arg0)) (m ((c.tc : Thread nD τ).loc main_arg2)))) (shapeCast S1x128 (m ((c.tc : Thread nD τ).loc main_arg3)) shapeCasts_S128_S1x128)) (m ((c.tc : Thread nD τ).loc main_arg4)))) := by
  have h3 : W7 m ρ c (Proc.devRef .tc main_v3) = (srcOf (m ((c.tc : Thread nD τ).loc main_arg1))) := (carry m ρ c main_v3 (by decide) (by decide) (by decide) (skip1_main_v3 m ρ c)).trans (src_at3 m ρ c)
  have h6 : W7 m ρ c (Proc.devRef .tc main_v6) = (dstOf (m ((c.tc : Thread nD τ).loc main_arg1))) := (carry m ρ c main_v6 (by decide) (by decide) (by decide) (skip1_main_v6 m ρ c)).trans (dst_at3 m ρ c)
  have h29 : W7 m ρ c (Proc.devRef .tc main_v29) = (edgeWeight (srcOf (m ((c.tc : Thread nD τ).loc main_arg1))) (dstOf (m ((c.tc : Thread nD τ).loc main_arg1)))) := (carry m ρ c main_v29 (by decide) (by decide) (by decide) (skip1_main_v29 m ρ c)).trans (weight_at3 m ρ c)
  have h46 := dense2_at7 m ρ c
  show StableHlo.after hostOps3 (W7 m ρ c) (Proc.devRef .tc main_v59) = _
  generalize W7 m ρ c = Wv at h3 h6 h29 h46 ⊢
  unfold aggregate64 wrapNode
  after_results_simp
  rw [h3, h6, h29, h46]

theorem bias2_at8 : W8 m ρ c (Proc.devRef .tc main_v60) = (shapeCast S1x64 (m ((c.tc : Thread nD τ).loc main_arg5)) shapeCasts_S64_S1x64) := by
  have h : W7 m ρ c (Proc.devRef .tc main_arg5) = (m ((c.tc : Thread nD τ).loc main_arg5)) := (carry m ρ c main_arg5 (by decide) (by decide) (by decide) (skip1_main_arg5 m ρ c)).trans (arg5_at3 m ρ c)
  show StableHlo.after hostOps3 (W7 m ρ c) (Proc.devRef .tc main_v60) = _
  generalize W7 m ρ c = Wv at h ⊢
  after_results_simp
  rw [h]
  rfl

/-! ## Region 3: the bias of layer 2, and the result -/

/-- The result array at the return. -/
theorem result_at9 : W9 m ρ c (Proc.devRef .tc main_v61) = (addBiasRow64 (aggregate64 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 64) (addBiasRowClamp128 (aggregate128 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 128) (m ((c.tc : Thread nD τ).loc main_arg0)) (m ((c.tc : Thread nD τ).loc main_arg2)))) (shapeCast S1x128 (m ((c.tc : Thread nD τ).loc main_arg3)) shapeCasts_S128_S1x128)) (m ((c.tc : Thread nD τ).loc main_arg4)))) (shapeCast S1x64 (m ((c.tc : Thread nD τ).loc main_arg5)) shapeCasts_S64_S1x64)) := by
  refine (W9_arr m ρ c 2).trans ((final3 (V8 m ρ) c).trans ?_)
  rw [show V8 m ρ c main_v59 = (aggregate64 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 64) (addBiasRowClamp128 (aggregate128 (srcOf (m ((c.tc : Thread nD τ).loc main_arg1))) (dstOf (m ((c.tc : Thread nD τ).loc main_arg1))) (edgeWeight (srcOf (m ((c.tc : Thread nD τ).loc main_arg1))) (dstOf (m ((c.tc : Thread nD τ).loc main_arg1)))) (matProd (n := 50000) (d := 128) (e := 128) (m ((c.tc : Thread nD τ).loc main_arg0)) (m ((c.tc : Thread nD τ).loc main_arg2)))) (shapeCast S1x128 (m ((c.tc : Thread nD τ).loc main_arg3)) shapeCasts_S128_S1x128)) (m ((c.tc : Thread nD τ).loc main_arg4)))) from agg2_at8 m ρ c, show V8 m ρ c main_v60 = (shapeCast S1x64 (m ((c.tc : Thread nD τ).loc main_arg5)) shapeCasts_S64_S1x64) from bias2_at8 m ρ c]

end Cert.KernelIdeal.KernelValue

end
-- ==== Proof.HostFnR.lean ====
/-
  The graph side of one convolution layer, as the host operations spell it in this program, named piece by piece:
  the edge list with the self loops appended, the wrap of a negative node number, the inverse square root of each
  node's in-degree (zero where the degree is not positive), the weight of every edge, and the aggregation — gather
  each edge's source row, scale it by the edge's weight, add it into the edge's destination row. Every piece is a
  composition of the program's own operations; none is opened anywhere.
-/
import proofs.«129329_j69681549410755_1_alg».proof.Proof.Gen.ReferenceIdeal

noncomputable section

namespace Cert.ReferenceIdeal.HostFn

open Cert.ReferenceIdeal Cert.ReferenceIdeal.Gen Idealize.ShloMosaic

variable {F : FTy → Type} [FloatOps F]

/-- The source node of every edge: row 0 of the edge list, then the self loops 0 … 49999. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destination node of every edge: row 1 of the edge list, then the self loops 0 … 49999. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counted from the end: v + 50000 where v < 0, else v. -/
def wrapNode (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- Each node's in-degree (self loop included): ones scattered and added by destination. -/
def degOf (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- deg^(-1/2) where deg > 0, else 0. -/
def invSqrtDeg (d : (⟨S850000, .i32⟩ : BufTy).Contents (Elt F)) : (⟨S50000, .f32⟩ : BufTy).Contents (Elt F) :=
  select (cmpf .ogt (degOf d) (broadcastInDim S50000 ![] bcast_S_S50000 (constant S_ .f32 0x00000000#32))) (Host.rsqrt (degOf d)) (broadcastInDim S50000 ![] bcast_S_S50000 (id (constant (F := F) S_ .f32 0x00000000#32)))

/-- The weight of every edge: deg^(-1/2) at its source times deg^(-1/2) at its destination. -/
def edgeWeight (s d : (⟨S850000, .i32⟩ : BufTy).Contents (Elt F)) : (⟨S850000, .f32⟩ : BufTy).Contents (Elt F) :=
  mulf (Host.gather gather_S50000_S850000x1_S850000_n_0_n_n_0_1_1 (invSqrtDeg d) (broadcastInDim S850000x1 ![0] bcast_S850000_S850000x1_0 (wrapNode s)))
    (Host.gather gather_S50000_S850000x1_S850000_n_0_n_n_0_1_1 (invSqrtDeg d) (broadcastInDim S850000x1 ![0] bcast_S850000_S850000x1_0 (wrapNode d)))

/-- Layer 1's aggregation of 128-wide rows: each edge's source row times the edge's weight, added into its destination row. -/
def aggregate128 (s d : (⟨S850000, .i32⟩ : BufTy).Contents (Elt F)) (nrm : (⟨S850000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d)
    (mulf (Host.gather gather_S50000x128_S850000x1_S850000x128_1_0_n_n_0_1_1128 h (broadcastInDim S850000x1 ![0] bcast_S850000_S850000x1_0 (wrapNode s)))
      (broadcastInDim S850000x128 ![0, 1] bcast_S850000x1_S850000x128_0_1 (broadcastInDim S850000x1 ![0] bcast_S850000_S850000x1_0 nrm)))

/-- Layer 2's aggregation of 64-wide rows. -/
def aggregate64 (s d : (⟨S850000, .i32⟩ : BufTy).Contents (Elt F)) (nrm : (⟨S850000, .f32⟩ : BufTy).Contents (Elt F))
    (h : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 d)
    (mulf (Host.gather gather_S50000x64_S850000x1_S850000x64_1_0_n_n_0_1_164 h (broadcastInDim S850000x1 ![0] bcast_S850000_S850000x1_0 (wrapNode s)))
      (broadcastInDim S850000x64 ![0, 1] bcast_S850000x1_S850000x64_0_1 (broadcastInDim S850000x1 ![0] bcast_S850000_S850000x1_0 nrm)))

end Cert.ReferenceIdeal.HostFn

end
-- ==== Proof.RefValue.lean ====
/-
  The reference's whole result, layer by layer: its run's composed term is the graph aggregation (named piece by
  piece beside this module) around two dense products, each layer's bias added to every row, the first layer clamped at zero.
-/
import proofs.«129329_j69681549410755_1_alg».proof.Proof.RefRunPatched
import proofs.«129329_j69681549410755_1_alg».proof.Proof.HostFnR

set_option maxRecDepth 16384

noncomputable section

namespace Cert.ReferenceIdeal.RefValue

open Cert.ReferenceIdeal Cert.ReferenceIdeal.Gen Cert.ReferenceIdeal.HostFn Idealize.ShloMosaic Idealize.ShloMosaic.TcCoe Idealize.SL.Sem

variable {F : FTy → Type} [FloatOps F]

/-- Layer 1 before the aggregation: the dense product x · W1. -/
def dense1 (x : (⟨S50000x128, .f32⟩ : BufTy).Contents (Elt F)) (w1 : (⟨S128x128, .f32⟩ : BufTy).Contents (Elt F)) : (⟨S50000x128, .f32⟩ : BufTy).Contents (Elt F) :=
  Host.dotGeneral dot_S50000x128_S128x128_S50000x128_1_0_0_1_n_n none x w1

/-- Layer 1 after the aggregation: the bias on every row, then the clamp at zero. -/
def finish1 (a : (⟨S50000x128, .f32⟩ : BufTy).Contents (Elt F)) (b1 : (⟨S128, .f32⟩ : BufTy).Contents (Elt F)) : (⟨S50000x128, .f32⟩ : BufTy).Contents (Elt F) :=
  maximumf (addf a (broadcastInDim S50000x128 ![0, 1] bcast_S1x128_S50000x128_0_1 (broadcastInDim S1x128 ![1] bcast_S128_S1x128_1 b1)))
    (broadcastInDim S50000x128 ![] bcast_S_S50000x128 (constant S_ .f32 0x00000000#32))

/-- Layer 2 before the aggregation: the dense product h · W2. -/
def dense2 (h : (⟨S50000x128, .f32⟩ : BufTy).Contents (Elt F)) (w2 : (⟨S128x64, .f32⟩ : BufTy).Contents (Elt F)) : (⟨S50000x64, .f32⟩ : BufTy).Contents (Elt F) :=
  Host.dotGeneral dot_S50000x128_S128x64_S50000x64_1_0_0_1_n_n none h w2

/-- Layer 2 after the aggregation: the bias on every row. -/
def finish2 (a : (⟨S50000x64, .f32⟩ : BufTy).Contents (Elt F)) (b2 : (⟨S64, .f32⟩ : BufTy).Contents (Elt F)) : (⟨S50000x64, .f32⟩ : BufTy).Contents (Elt F) :=
  addf a (broadcastInDim S50000x64 ![0, 1] bcast_S1x64_S50000x64_0_1 (broadcastInDim S1x64 ![1] bcast_S64_S1x64_1 b2))

/-- The two layers composed. -/
def twoLayers (x : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S50000x64, .f32⟩ : BufTy).Contents (Elt F) :=
  finish2 (aggregate64 (srcOf e) (dstOf e) (edgeWeight (srcOf e) (dstOf e))
    (dense2 (finish1 (aggregate128 (srcOf e) (dstOf e) (edgeWeight (srcOf e) (dstOf e)) (dense1 x w1)) b1) w2)) b2

set_option maxHeartbeats 4000000 in
/-- The run's composed term is the two layers. -/
theorem res_eq (m : (ℓ : Loc nD τ sig) → Buf (Elt F) ℓ) (c : Dev nD) :
    Cert.ReferenceIdeal.ValueP.res_main_v87 m c = twoLayers (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v87 twoLayers finish2 finish1 dense2 dense1 aggregate64 aggregate128 edgeWeight invSqrtDeg degOf wrapNode srcOf dstOf
  rfl

end Cert.ReferenceIdeal.RefValue

end
-- ==== Proof.KernelPieces.lean ====
/-
  The kernel's bias row: the host reshapes the bias vector to a one-row array before the region reads it, and the
  region adds that one row to every row. Entry by entry this is "the bias entry of the column", the same as the
  reference's broadcast.
-/
import proofs.«129329_j69681549410755_1_alg».proof.Proof.Region1
import proofs.«129329_j69681549410755_1_alg».proof.Proof.Region3
import proofs.«129329_j69681549410755_1_alg».proof.Proof.Spec
import Idealize.ShloMosaic.Lib.ValueLayout

set_option maxRecDepth 16384

noncomputable section

namespace Cert.KernelIdeal.RegionValue

open Cert.KernelIdeal Cert.KernelIdeal.Gen Cert.GcnSpec
open Idealize.ShloMosaic Idealize.ShloMosaic.ValueIdx

variable {F : FTy → Type} [FloatOps F]

/-- Layer 1: the reshaped bias row added to every row, then the clamp, is "bias on every row, clamp at zero". -/
theorem clampRow_eq (a : S50000x128.Idx → Elt F .f32) (b : S128.Idx → Elt F .f32) :
    addBiasRowClamp128 a (shapeCast S1x128 b shapeCasts_S128_S1x128) = addBiasClamp (n := 50000) (e := 128) a b := by
  funext i
  obtain ⟨p, q, rfl⟩ : ∃ (p : Fin 50000) (q : Fin 128), i = ix2 p q := ⟨i 0, i 1, eq_ix2 i⟩
  unfold addBiasRowClamp128 addBiasClamp
  show FloatOps.maximumf (FloatOps.addf (a (ix2 p q)) (shapeCast S1x128 b shapeCasts_S128_S1x128 (ix2 (0 : Fin 1) q))) (Scalar.ofBits .f32 0x00000000#32)
    = FloatOps.maximumf (FloatOps.addf (a (ix2 p q)) (b (ix1 q))) (Scalar.ofBits .f32 0x00000000#32)
  rw [shapeCast_a_1a_apply]

/-- Layer 2: the reshaped bias row added to every row is "bias on every row". -/
theorem row_eq (a : S50000x64.Idx → Elt F .f32) (b : S64.Idx → Elt F .f32) :
    addBiasRow64 a (shapeCast S1x64 b shapeCasts_S64_S1x64) = addBias (n := 50000) (e := 64) a b := by
  funext i
  obtain ⟨p, q, rfl⟩ : ∃ (p : Fin 50000) (q : Fin 64), i = ix2 p q := ⟨i 0, i 1, eq_ix2 i⟩
  unfold addBiasRow64 addBias
  show FloatOps.addf (a (ix2 p q)) (shapeCast S1x64 b shapeCasts_S64_S1x64 (ix2 (0 : Fin 1) q)) = FloatOps.addf (a (ix2 p q)) (b (ix1 q))
  rw [shapeCast_a_1a_apply]

end Cert.KernelIdeal.RegionValue

end
-- ==== Proof.RefPieces.lean ====
/-
  The reference's dense and bias steps read at an index, at the extended reals: each dense product is the sum over
  the contracted axis; the bias, broadcast first to one row and then to every row, is the bias entry of the column;
  the clamp's constant is the float zero.
-/
import proofs.«129329_j69681549410755_1_alg».proof.Proof.RefValue
import proofs.«129329_j69681549410755_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.GcnSpec
open Idealize.ShloMosaic Idealize.ShloMosaic.ValueIdx

/-! The two dimension records contract the left operand's axis 1 with the right operand's axis 0. -/

theorem rdot1_l0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem rdot1_l1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rdot1_r0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rdot1_r1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

theorem rdot2_l0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem rdot2_l1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rdot2_r0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rdot2_r1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- Layer 1's dense product is the sum over k of x(r, k) · w(k, q). -/
theorem dense1_eq (x : (⟨S50000x128, .f32⟩ : BufTy).Contents (Elt Ideal)) (w1 : (⟨S128x128, .f32⟩ : BufTy).Contents (Elt Ideal)) :
    dense1 (F := Ideal) x w1 = matProd (n := 50000) (d := 128) (e := 128) x w1 := by
  funext i
  unfold dense1
  simp only [Host.dotGeneral]
  rw [Ideal.dotGeneral_apply]
  exact sum_contr dot_S50000x128_S128x128_S50000x128_1_0_0_1_n_n rfl rfl rdot1_l0 rdot1_l1 rdot1_r0 rdot1_r1 x w1 i

/-- Layer 2's dense product is the sum over k of h(r, k) · w(k, q). -/
theorem dense2_eq (h : (⟨S50000x128, .f32⟩ : BufTy).Contents (Elt Ideal)) (w2 : (⟨S128x64, .f32⟩ : BufTy).Contents (Elt Ideal)) :
    dense2 (F := Ideal) h w2 = matProd (n := 50000) (d := 128) (e := 64) h w2 := by
  funext i
  unfold dense2
  simp only [Host.dotGeneral]
  rw [Ideal.dotGeneral_apply]
  exact sum_contr dot_S50000x128_S128x64_S50000x64_1_0_0_1_n_n rfl rfl rdot2_l0 rdot2_l1 rdot2_r0 rdot2_r1 h w2 i

variable {F : FTy → Type} [FloatOps F]

/-- The 128-wide bias, broadcast to a row and then to every row, read at (p, q): the bias at q. -/
theorem biasRows128_at (b : (⟨S128, .f32⟩ : BufTy).Contents (Elt F)) (p : Fin 50000) (q : Fin 128) :
    broadcastInDim S50000x128 ![0, 1] bcast_S1x128_S50000x128_0_1 (broadcastInDim S1x128 ![1] bcast_S128_S1x128_1 b) (ix2 p q) = b (ix1 q) :=
  (broadcastInDim_apply _ bcast_S1x128_S50000x128_0_1 (broadcastInDim S1x128 ![1] bcast_S128_S1x128_1 b) (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- The 64-wide bias, broadcast to a row and then to every row, read at (p, q): the bias at q. -/
theorem biasRows64_at (b : (⟨S64, .f32⟩ : BufTy).Contents (Elt F)) (p : Fin 50000) (q : Fin 64) :
    broadcastInDim S50000x64 ![0, 1] bcast_S1x64_S50000x64_0_1 (broadcastInDim S1x64 ![1] bcast_S64_S1x64_1 b) (ix2 p q) = b (ix1 q) :=
  (broadcastInDim_apply _ bcast_S1x64_S50000x64_0_1 (broadcastInDim S1x64 ![1] bcast_S64_S1x64_1 b) (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans
  (broadcastInDim_apply _ bcast_S64_S1x64_1 b (ix2 (0 : Fin 1) q) (ix1 q) (fun a => match a with
    | ⟨0, _⟩ => by show q.val = if (64 : Nat) = 1 then 0 else q.val; rw [if_neg (by decide)]))

/-- Layer 1's finish is "bias on every row, clamp at zero", entry by entry. -/
theorem finish1_eq (a : (⟨S50000x128, .f32⟩ : BufTy).Contents (Elt F)) (b : (⟨S128, .f32⟩ : BufTy).Contents (Elt F)) :
    finish1 a b = addBiasClamp (n := 50000) (e := 128) a b := by
  funext i
  obtain ⟨p, q, rfl⟩ : ∃ (p : Fin 50000) (q : Fin 128), i = ix2 p q := ⟨i 0, i 1, eq_ix2 i⟩
  unfold finish1 addBiasClamp
  show FloatOps.maximumf (FloatOps.addf (a (ix2 p q)) (broadcastInDim S50000x128 ![0, 1] bcast_S1x128_S50000x128_0_1 (broadcastInDim S1x128 ![1] bcast_S128_S1x128_1 b) (ix2 p q))) (Scalar.ofBits .f32 0x00000000#32)
    = FloatOps.maximumf (FloatOps.addf (a (ix2 p q)) (b (ix1 q))) (Scalar.ofBits .f32 0x00000000#32)
  rw [biasRows128_at]

/-- Layer 2's finish is "bias on every row", entry by entry. -/
theorem finish2_eq (a : (⟨S50000x64, .f32⟩ : BufTy).Contents (Elt F)) (b : (⟨S64, .f32⟩ : BufTy).Contents (Elt F)) :
    finish2 a b = addBias (n := 50000) (e := 64) a b := by
  funext i
  obtain ⟨p, q, rfl⟩ : ∃ (p : Fin 50000) (q : Fin 64), i = ix2 p q := ⟨i 0, i 1, eq_ix2 i⟩
  unfold finish2 addBias
  show FloatOps.addf (a (ix2 p q)) (broadcastInDim S50000x64 ![0, 1] bcast_S1x64_S50000x64_0_1 (broadcastInDim S1x64 ![1] bcast_S64_S1x64_1 b) (ix2 p q))
    = FloatOps.addf (a (ix2 p q)) (b (ix1 q))
  rw [biasRows64_at]

end Cert.ReferenceIdeal.RefValue

end
-- ==== Proof.Bridge.lean ====
/-
  The two programs compute one function. Written layer by layer, both results are
      bias₂ + aggregate( (clamp(bias₁ + aggregate(x · W1))) · W2 ),
  with the same edge list, the same edge weights and the same aggregation (the host operations are the same
  operations in both programs, so they are carried as named functions and never opened); each dense product is the
  same sum over the contracted axis; the kernel's reshaped bias row and the reference's broadcast bias are the same
  bias entry per column. No law of the extended reals is used beyond this re-spelling, so finiteness is not needed.
-/
import proofs.«129329_j69681549410755_1_alg».proof.Proof.KernelValue
import proofs.«129329_j69681549410755_1_alg».proof.Proof.KernelPieces
import proofs.«129329_j69681549410755_1_alg».proof.Proof.RefPieces

set_option maxRecDepth 16384

noncomputable section

namespace Cert.Bridge

open Idealize.ShloMosaic Cert.GcnSpec

section Same
variable {F : FTy → Type} [FloatOps F]

/-! The graph side is spelt with the same operations in both programs. -/

theorem srcOf_same (e : (⟨Cert.ReferenceIdeal.S2x800000, .i32⟩ : BufTy).Contents (Elt F)) : Cert.KernelIdeal.HostFn.srcOf e = Cert.ReferenceIdeal.HostFn.srcOf e := rfl
theorem dstOf_same (e : (⟨Cert.ReferenceIdeal.S2x800000, .i32⟩ : BufTy).Contents (Elt F)) : Cert.KernelIdeal.HostFn.dstOf e = Cert.ReferenceIdeal.HostFn.dstOf e := rfl
theorem edgeWeight_same (s d : (⟨Cert.ReferenceIdeal.S850000, .i32⟩ : BufTy).Contents (Elt F)) : Cert.KernelIdeal.HostFn.edgeWeight s d = Cert.ReferenceIdeal.HostFn.edgeWeight s d := rfl
theorem aggregate128_same (s d : (⟨Cert.ReferenceIdeal.S850000, .i32⟩ : BufTy).Contents (Elt F)) (n : (⟨Cert.ReferenceIdeal.S850000, .f32⟩ : BufTy).Contents (Elt F))
    (h : (⟨Cert.ReferenceIdeal.S50000x128, .f32⟩ : BufTy).Contents (Elt F)) : Cert.KernelIdeal.HostFn.aggregate128 s d n h = Cert.ReferenceIdeal.HostFn.aggregate128 s d n h := rfl
theorem aggregate64_same (s d : (⟨Cert.ReferenceIdeal.S850000, .i32⟩ : BufTy).Contents (Elt F)) (n : (⟨Cert.ReferenceIdeal.S850000, .f32⟩ : BufTy).Contents (Elt F))
    (h : (⟨Cert.ReferenceIdeal.S50000x64, .f32⟩ : BufTy).Contents (Elt F)) : Cert.KernelIdeal.HostFn.aggregate64 s d n h = Cert.ReferenceIdeal.HostFn.aggregate64 s d n h := rfl

end Same

variable (x : (⟨Cert.ReferenceIdeal.S50000x128, .f32⟩ : BufTy).Contents (Elt Ideal)) (e : (⟨Cert.ReferenceIdeal.S2x800000, .i32⟩ : BufTy).Contents (Elt Ideal))
  (w1 : (⟨Cert.ReferenceIdeal.S128x128, .f32⟩ : BufTy).Contents (Elt Ideal)) (b1 : (⟨Cert.ReferenceIdeal.S128, .f32⟩ : BufTy).Contents (Elt Ideal))
  (w2 : (⟨Cert.ReferenceIdeal.S128x64, .f32⟩ : BufTy).Contents (Elt Ideal)) (b2 : (⟨Cert.ReferenceIdeal.S64, .f32⟩ : BufTy).Contents (Elt Ideal))

/-- The reference's two layers, with each dense and bias step read as its sum or its per-column entry. -/
theorem ref_spec : Cert.ReferenceIdeal.RefValue.twoLayers (F := Ideal) x e w1 b1 w2 b2
    = addBias (n := 50000) (e := 64) (Cert.ReferenceIdeal.HostFn.aggregate64 (Cert.ReferenceIdeal.HostFn.srcOf e) (Cert.ReferenceIdeal.HostFn.dstOf e) (Cert.ReferenceIdeal.HostFn.edgeWeight (Cert.ReferenceIdeal.HostFn.srcOf e) (Cert.ReferenceIdeal.HostFn.dstOf e)) (matProd (n := 50000) (d := 128) (e := 64) (addBiasClamp (n := 50000) (e := 128) (Cert.ReferenceIdeal.HostFn.aggregate128 (Cert.ReferenceIdeal.HostFn.srcOf e) (Cert.ReferenceIdeal.HostFn.dstOf e) (Cert.ReferenceIdeal.HostFn.edgeWeight (Cert.ReferenceIdeal.HostFn.srcOf e) (Cert.ReferenceIdeal.HostFn.dstOf e)) (matProd (n := 50000) (d := 128) (e := 128) x w1)) b1) w2)) b2 := by
  unfold Cert.ReferenceIdeal.RefValue.twoLayers
  rw [Cert.ReferenceIdeal.RefValue.dense1_eq, Cert.ReferenceIdeal.RefValue.finish1_eq, Cert.ReferenceIdeal.RefValue.dense2_eq, Cert.ReferenceIdeal.RefValue.finish2_eq]

/-- The kernel's result, with each bias row read as its per-column entry. -/
theorem kernel_spec : Cert.KernelIdeal.RegionValue.addBiasRow64 (Cert.KernelIdeal.HostFn.aggregate64 (Cert.KernelIdeal.HostFn.srcOf e) (Cert.KernelIdeal.HostFn.dstOf e) (Cert.KernelIdeal.HostFn.edgeWeight (Cert.KernelIdeal.HostFn.srcOf e) (Cert.KernelIdeal.HostFn.dstOf e)) (matProd (n := 50000) (d := 128) (e := 64) (Cert.KernelIdeal.RegionValue.addBiasRowClamp128 (Cert.KernelIdeal.HostFn.aggregate128 (Cert.KernelIdeal.HostFn.srcOf e) (Cert.KernelIdeal.HostFn.dstOf e) (Cert.KernelIdeal.HostFn.edgeWeight (Cert.KernelIdeal.HostFn.srcOf e) (Cert.KernelIdeal.HostFn.dstOf e)) (matProd (n := 50000) (d := 128) (e := 128) x w1)) (shapeCast Cert.KernelIdeal.S1x128 b1 Cert.KernelIdeal.Gen.shapeCasts_S128_S1x128)) w2)) (shapeCast Cert.KernelIdeal.S1x64 b2 Cert.KernelIdeal.Gen.shapeCasts_S64_S1x64)
    = addBias (n := 50000) (e := 64) (Cert.KernelIdeal.HostFn.aggregate64 (Cert.KernelIdeal.HostFn.srcOf e) (Cert.KernelIdeal.HostFn.dstOf e) (Cert.KernelIdeal.HostFn.edgeWeight (Cert.KernelIdeal.HostFn.srcOf e) (Cert.KernelIdeal.HostFn.dstOf e)) (matProd (n := 50000) (d := 128) (e := 64) (addBiasClamp (n := 50000) (e := 128) (Cert.KernelIdeal.HostFn.aggregate128 (Cert.KernelIdeal.HostFn.srcOf e) (Cert.KernelIdeal.HostFn.dstOf e) (Cert.KernelIdeal.HostFn.edgeWeight (Cert.KernelIdeal.HostFn.srcOf e) (Cert.KernelIdeal.HostFn.dstOf e)) (matProd (n := 50000) (d := 128) (e := 128) x w1)) b1) w2)) b2 := by
  rw [Cert.KernelIdeal.RegionValue.clampRow_eq, Cert.KernelIdeal.RegionValue.row_eq]

/-- One function. -/
theorem same : Cert.ReferenceIdeal.RefValue.twoLayers (F := Ideal) x e w1 b1 w2 b2
    = Cert.KernelIdeal.RegionValue.addBiasRow64 (Cert.KernelIdeal.HostFn.aggregate64 (Cert.KernelIdeal.HostFn.srcOf e) (Cert.KernelIdeal.HostFn.dstOf e) (Cert.KernelIdeal.HostFn.edgeWeight (Cert.KernelIdeal.HostFn.srcOf e) (Cert.KernelIdeal.HostFn.dstOf e)) (matProd (n := 50000) (d := 128) (e := 64) (Cert.KernelIdeal.RegionValue.addBiasRowClamp128 (Cert.KernelIdeal.HostFn.aggregate128 (Cert.KernelIdeal.HostFn.srcOf e) (Cert.KernelIdeal.HostFn.dstOf e) (Cert.KernelIdeal.HostFn.edgeWeight (Cert.KernelIdeal.HostFn.srcOf e) (Cert.KernelIdeal.HostFn.dstOf e)) (matProd (n := 50000) (d := 128) (e := 128) x w1)) (shapeCast Cert.KernelIdeal.S1x128 b1 Cert.KernelIdeal.Gen.shapeCasts_S128_S1x128)) w2)) (shapeCast Cert.KernelIdeal.S1x64 b2 Cert.KernelIdeal.Gen.shapeCasts_S64_S1x64) := by
  rw [ref_spec, kernel_spec, srcOf_same, dstOf_same, edgeWeight_same, aggregate128_same, aggregate64_same]

end Cert.Bridge

end
-- ==== Proof.lean ====
/-
  The proof of `Cert.Claim`: a two-layer graph convolution whose dense transforms and bias steps run as four
  kernel regions, against the same network written with plain array operations.

  Frames. Each program terminates without a fault and leaves its arguments unchanged: for the two kernel programs
  this is the run of their four regions among the host operations; for the reference it is its run with the
  result dropped.

  Preserves. The idealization rewrote no operation, so there is nothing to state.

  Algebraic. At the extended reals both programs end with
      bias₂ + aggregate( clamp(bias₁ + aggregate(x · W1)) · W2 )
  in the result array, where aggregate gathers each edge's source row, scales it by the edge's weight
  deg^(-1/2)(src) · deg^(-1/2)(dst) and adds it into the edge's destination row (self loops included). The kernel
  computes each dense product block of 2000 rows by block, and a block of rows of a product is the product of the
  block of rows; a change of float format is the identity at the extended reals; the product into a zero
  accumulator and the reference's contraction are the same sum over the contracted axis. The kernel adds a
  reshaped bias row to every row of a block where the reference adds a broadcast bias: the same entry per column.
  The host operations between the regions are the reference's own, operation for operation. Nothing here needs the
  inputs to be finite: only the spelling of the two programs is compared, never a law that fails at infinities.
-/
import proofs.«129329_j69681549410755_1_alg».proof.Defs
import proofs.«129329_j69681549410755_1_alg».proof.Proof.Gen.Kernel
import proofs.«129329_j69681549410755_1_alg».proof.Proof.Gen.Kernel.Frame
import proofs.«129329_j69681549410755_1_alg».proof.Proof.Gen.KernelIdeal
import proofs.«129329_j69681549410755_1_alg».proof.Proof.Gen.KernelIdeal.Frame
import proofs.«129329_j69681549410755_1_alg».proof.Proof.Gen.ReferenceIdeal
import proofs.«129329_j69681549410755_1_alg».proof.Proof.Gen.Pre_finite_inputs
import proofs.«129329_j69681549410755_1_alg».proof.Proof.KernelRun
import proofs.«129329_j69681549410755_1_alg».proof.Proof.KernelValue
import proofs.«129329_j69681549410755_1_alg».proof.Proof.RefRunPatched
import proofs.«129329_j69681549410755_1_alg».proof.Proof.RefValue
import proofs.«129329_j69681549410755_1_alg».proof.Proof.Bridge

set_option maxRecDepth 16384

noncomputable section

namespace Cert.Proof

open Idealize.ShloMosaic Idealize.SL.Sem Idealize.ShloMosaic.TcCoe

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the same result array, entry by entry as extended reals. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Gen.W9 m ρ c (Proc.devRef .tc Cert.KernelIdeal.main_v61), Cert.KernelIdeal.WholeRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  rw [Cert.ReferenceIdeal.RefValue.res_eq, a0, a1, a2, a3, a4, a5]
  exact (Cert.Bridge.same (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).trans
    (Cert.KernelIdeal.KernelValue.result_at9 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
